-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128x256 : Shape := ⟨2, ![128, 256]⟩
abbrev S_ : Shape := ⟨0, ![]⟩
abbrev S10000 : Shape := ⟨1, ![10000]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part1 {F : FTy → Type} [FloatOps F] (main_arg0 : FVec F S10000x10000 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_cst_6 : FVec F S_ .f32 := constant S_ .f32 0x00000000#32
  let main_v19 : FVec F S10000 .f32 := (fun x v => Host.reduceAdd x v reducesTo_S10000x10000_S10000_d1 h_S_) main_arg0 main_cst_6
  let main_cst_7 : FVec F S_ .f32 := constant S_ .f32 0x3F800000#32
  let main_v20 : FVec F S10000 .f32 := broadcastInDim S10000 ![] bcast_S_S10000 main_cst_7
  let main_v21 : FVec F S10000 .f32 := addf main_v19 main_v20
  let main_cst_8 : FVec F S_ .f32 := constant S_ .f32 0x00000000#32
  let main_v22 : FVec F S10000 .f32 := broadcastInDim S10000 ![] bcast_S_S10000 main_cst_8
  let main_v23 : IVec S10000 1 := cmpf .une main_v21 main_v22
  let main_c_9 : IVec S_ 1 := constantI S_ 1 1#1
  let main_v24 : IVec S_ 1 := (fun x v => Host.reduce IntOp.andi x v reducesTo_S10000_S_d0 h_S_) main_v23 main_c_9
  let main_v25 : IVec S_ 1 := andi main_v18 main_v24
  main_v25

def fn {F : FTy → Type} [FloatOps F] (main_arg0 : FVec F S10000x10000 .f32) (main_arg1 : FVec F S10000x128 .f32) (main_arg2 : FVec F S128x128 .f32) (main_arg3 : FVec F S128x256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg0 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128x256 : Shape := ⟨2, ![128, 256]⟩
abbrev S200x10000 : Shape := ⟨2, ![200, 10000]⟩
abbrev S400x128 : Shape := ⟨2, ![400, 128]⟩
abbrev S200x128 : Shape := ⟨2, ![200, 128]⟩
abbrev S200 : Shape := ⟨1, ![200]⟩
abbrev S200x1 : Shape := ⟨2, ![200, 1]⟩

abbrev nBuf : Space → Nat
  | .hbm => 5
  | .vmem => 9
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x256, .f32⟩
  | .hbm, ⟨4, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x256, .f32⟩
  | .local _ .vmem, ⟨7, _⟩ => ⟨S400x128, .f32⟩
  | .local _ .vmem, ⟨8, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v20 : BitVec 32 := Scalar.muli arg0 c400_i32
  let v21 : Index := Scalar.indexCast v20
  let c0_22 : Index := 0#32
  ![v21.toNat, 0]
def k0_off2 (i : grid0.Coords) : Fin 2 → Nat :=
  let arg0 : BitVec 32 := BitVec.ofNat 32 (i 0).val
  let c400_i32_23 : BitVec 32 := 400#32
  let v23 : BitVec 32 := Scalar.muli arg0 c400_i32_23
  let c200_i32 : BitVec 32 := 200#32
  let v24 : BitVec 32 := Scalar.addi v23 c200_i32
  let v25 : Index := Scalar.indexCast v24
  let c0_24 : Index := 0#32
  ![v25.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  reduces_S200x10000_S200 : S200x10000.Reduces [1] S200
  shapeCasts_S200_S200x1 : S200.ShapeCasts S200x1
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  inb_S128x128_S128x128_0_0 : ∀ a, (![0, 0] : Fin 2 → Nat) a + S128x128.size a ≤ S128x128.size a
  h_S200x128 : 0 < S200x128.numel
  broadcasts_S200x1_S200x128 : S200x1.Broadcasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S128x128_S128x128_S128x128_1_0_0_1_n_n_wf : DotDims.WF S128x128 S128x128 S128x128 [1] [0] [0] [1] [] []
  dot_S200x128_S128x128_S200x128_1_1_0_0_n_n_wf : DotDims.WF S200x128 S128x128 S200x128 [1] [1] [0] [0] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128x256 : Shape := ⟨2, ![128, 256]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩

abbrev nBuf : Space → Nat
  | .hbm => 18
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x256, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S10000, .f32⟩
  | .hbm, ⟨9, _⟩ => ⟨S10000x1, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x128, .f32⟩
  | .hbm, ⟨14, _⟩ => ⟨S10000x128, .f32⟩
  | .hbm, ⟨15, _⟩ => ⟨S10000x256, .f32⟩
  | .hbm, ⟨16, _⟩ => ⟨S256x128, .f32⟩
  | .hbm, ⟨17, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S128x128_S128x128_1_0 : S128x128.Transposes [1, 0] S128x128
  reducesTo_S10000x10000_S10000_d1 : S10000x10000.ReducesTo [1] S10000
  h_S_ : 0 < S_.numel
  shapeCasts_S10000_S10000x1 : S10000.ShapeCasts S10000x1
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.SageKernelRun.lean ====
/-
  The kernel's run. One grid point i of 25 takes the adjacency rows 400 i … 400 i + 199 and 400 i + 200 … 400 i + 399
  as two blocks of 200 rows (two windows on the ONE adjacency array), all the features, and the two weight arrays, and
  writes rows 400 i … 400 i + 399 of the result: the first 200 from the first block, the last 200 from the second.
  Nothing is kept from point to point; every input buffer is left as found.
-/
import proofs.«108482_g5428838662690_cont_9to1_m_1089_7_alg».proof.Proof.Gen.KernelIdeal.Launch
import proofs.«108482_g5428838662690_cont_9to1_m_1089_7_alg».proof.Proof.Gen.KernelIdeal.Skeleton
import proofs.«108482_g5428838662690_cont_9to1_m_1089_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

/-- A whole block of 200 adjacency rows. -/
abbrev rAdj : Rect S200x10000 := Rect.unit (s := S200x10000) ![0, 0] S200x10000.size inb_S200x10000_S200x10000_0_0
/-- All the features. -/
abbrev rFeat : Rect S10000x128 := Rect.unit (s := S10000x128) ![0, 0] S10000x128.size inb_S10000x128_S10000x128_0_0
/-- The neighbour weights, whole. -/
abbrev rWn : Rect S128x128 := Rect.unit (s := S128x128) ![0, 0] S128x128.size inb_S128x128_S128x128_0_0
/-- The first 128 input columns of the joined weights, and the last 128. -/
abbrev rWl1 : Rect S128x256 := Rect.unit (s := S128x256) ![0, 0] S128x128.size inb_S128x256_S128x128_0_0
abbrev rWl2 : Rect S128x256 := Rect.unit (s := S128x256) ![0, 128] S128x128.size inb_S128x256_S128x128_0_128
/-- The feature rows of the point's first half block, and of its second. -/
abbrev rFa (i : grid0.Coords) : Rect S10000x128 := Rect.unit (s := S10000x128) (k0_off1 i) S200x128.size (k0_off1_inb i)
abbrev rFb (i : grid0.Coords) : Rect S10000x128 := Rect.unit (s := S10000x128) (k0_off2 i) S200x128.size (k0_off2_inb i)
/-- The two halves of the output block. -/
abbrev rOutA : Rect S400x128 := Rect.unit (s := S400x128) ![0, 0] S200x128.size inb_S400x128_S200x128_0_0
abbrev rOutB : Rect S400x128 := Rect.unit (s := S400x128) ![200, 0] S200x128.size inb_S400x128_S200x128_200_0

/-! ## What the body leaves in the output block -/

/-- The first half's 200 rows, from what the point loaded. -/
def halfA (i : grid0.Coords) (x0 : Vec F S200x10000 .f32) (x2 : Vec F S10000x128 .f32) (x3 : Vec F S128x128 .f32) (x4 : Vec F S128x256 .f32) :
    FVec F S200x128 .f32 :=
  k0_pay1 (k0_pay3 (View.ld x0 rAdj) (View.ld x2 rFeat)) (k0_pay5 (View.ld x0 rAdj)) (k0_pay7 (View.ld x4 rWl2) (View.ld x3 rWn))
    (k0_pay8 (View.ld x4 rWl1) (View.ld x2 (rFa i)))
/-- The second half's. -/
def halfB (i : grid0.Coords) (x1 : Vec F S200x10000 .f32) (x2 : Vec F S10000x128 .f32) (x3 : Vec F S128x128 .f32) (x4 : Vec F S128x256 .f32) :
    FVec F S200x128 .f32 :=
  k0_pay2 (k0_pay4 (View.ld x1 rAdj) (View.ld x2 rFeat)) (k0_pay6 (View.ld x1 rAdj)) (View.ld x4 rWl1) (k0_pay7 (View.ld x4 rWl2) (View.ld x3 rWn))
    (View.ld x2 (rFb i))

/-- The output block after the body: its two stores as pieces, the last first. -/
def outBlock (i : grid0.Coords) (x0 x1 : Vec F S200x10000 .f32) (x2 : Vec F S10000x128 .f32) (x3 : Vec F S128x128 .f32) (x4 : Vec F S128x256 .f32) :
    Vec F S400x128 .f32 :=
  View.canon [⟨rOutB, halfB i x1 x2 x3 x4⟩, ⟨rOutA, halfA i x0 x2 x3 x4⟩]

/-- The two halves tile the block. -/
theorem outCover (p0 p1 : Vec F S200x128 .f32) (y : S400x128.Idx) :
    ∃ pc ∈ ([⟨rOutB, p1⟩, ⟨rOutA, p0⟩] : List (View.Piece (Elt F) S400x128 .f32)), y ∈ pc.1.set :=
  View.cover_of_tiled [⟨rOutB, p1⟩, ⟨rOutA, p0⟩] S200x128.size (by rfl) y

/-! ## The body's triple -/

set_option maxHeartbeats 1000000 in
/-- The body on whole staging buffers, the five inputs' at contents `x0 … x4` and the output's at anything, runs to the
    end leaving the inputs' as they were and the output's at `outBlock`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x256 .f32) (harg5 : arg5.IsWhole) (arg6 : Memref sig .tc .vmem S400x128 .f32) (harg6 : arg6.IsWhole)
    (x0 x1 : Vec F S200x10000 .f32) (x2 : Vec F S10000x128 .f32) (x3 : Vec F S128x128 .f32) (x4 : Vec F S128x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock i x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _ _)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- The program up to its region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region's and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block and
    the output's at `outBlock` of the input blocks; the invariant the scoped buffers no window stages (there is none);
    nothing owed; the adjacency array, which two windows read, held half by each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (grid0.coords t) (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlock (grid0.coords t) (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t := before_0_of m (dats m 0 c) (A_eq m c 0) (after_0 m c) t d
theorem before_1 (c : Dev nD) (t : Fin cfg0.N) (d) : (dats m 0 c).before 1 t d = iblk m c 1 t := before_1_of m (dats m 0 c) (A_eq m c 1) (after_1 m c) t d
theorem before_2 (c : Dev nD) (t : Fin cfg0.N) (d) : (dats m 0 c).before 2 t d = iblk m c 2 t := before_2_of m (dats m 0 c) (A_eq m c 2) (after_2 m c) t d
theorem before_3 (c : Dev nD) (t : Fin cfg0.N) (d) : (dats m 0 c).before 3 t d = iblk m c 3 t := before_3_of m (dats m 0 c) (A_eq m c 3) (after_3 m c) t d
theorem before_4 (c : Dev nD) (t : Fin cfg0.N) (d) : (dats m 0 c).before 4 t d = iblk m c 4 t := before_4_of m (dats m 0 c) (A_eq m c 4) (after_4 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- The five buffers behind the six windows' arrays, conjoined one by one. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_arg3 ∗ Φ main_v0) :=
  bigSep_eq_bigSepL_of_eq [main_arg0, main_arg1, main_arg2, main_arg3, main_v0] (by decide) (by decide) Φ

/-- A window's array, a whole buffer, held at the window's share at the entry contents. -/
theorem arr_at_share (c : Dev nD) (w : Fin cfg0.W) (q : PosShare TreeShare) (hq : (dats m 0 c).share w = q) :
    (((c.tc : Thread nD τ).loc (Pipeline.arrRef spec0 w)) ↦{q} V m c (Pipeline.arrRef spec0 w) : sProp 𝕄)
      ⊢ (cfg0.win w).arr.view.loc (c.tc : Thread nD τ) ↦[(cfg0.win w).arr.view.set]{(dats m 0 c).share w} (dats m 0 c).arrAt w 0 := by
  rw [(arr_whole0 w).set_eq_univ, hq]; exact .rfl

/-- The buffers behind the arrays, each held whole at the region's entry, make the windows' arrays: the adjacency
    array, read through two windows, split into its two half shares, one per window. -/
theorem arrays_entry (c : Dev nD) :
    (Pipeline.arrBufs spec0 c (V m c) : sProp 𝕄) ⊢ (dats m 0 c).arrays ((dats m 0 c).arrAt · 0) := by
  classical
  unfold Pipeline.arrBufs Dat.arrays
  rw [bigSep_arrs, bigSep_W0]
  iintro ⟨Ha, Hf, Hn, Hl, Ho⟩
  ihave Ha' := (pointsTo_share (PosShare.mem_left_op_right fullShare)).1 $$ Ha
  icases Ha' with ⟨Ha1, Ha2⟩
  isplitl [Ha1]; · iapply (arr_at_share m c 0 fullShare.left rfl); iexact Ha1
  isplitl [Ha2]; · iapply (arr_at_share m c 1 fullShare.right rfl); iexact Ha2
  isplitl [Hf]; · iapply (arr_at_share m c 2 fullShare rfl); iexact Hf
  isplitl [Hn]; · iapply (arr_at_share m c 3 fullShare rfl); iexact Hn
  isplitl [Hl]; · iapply (arr_at_share m c 4 fullShare rfl); iexact Hl
  iapply (arr_at_share m c 5 fullShare rfl); iexact Ho

/-! ## The run -/

set_option backward.isDefEq.respectTransparency.types false in
/-- From any memory with zero counters every weakly fair execution of the program terminates, nothing faulting, with
    every window's array at what the write-backs of the 25 points leave of it. -/
theorem run_arrays : θ_run defs (onTc (τ := τ) (main (F := F))) (s₀ m ρ)
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_entry m)
    (X := fun _ => iprop(emp)) (Y := fun _ => iprop(emp)) (Z := fun c => Pipeline.unscopedRest spec0 c (V m c))
    (hX := fun c => by iintro H; isplitr; · iempintro
                       iexact H)
    (hin := fun c => by dsimp only [dats]; iintro ⟨-, H⟩; iexact H)
    (hout := fun c => by dsimp only [dats]; iintro H; isplitr; · iempintro
                         iexact H)
    (QY := fun _ _ => True)
    (hY := fun c s' => by
      iintro ⟨-, -, HSI⟩; imodintro
      isplitr; · ipureintro; trivial
      iexact HSI)
    (hQ := fun s h c w => (h c).1 w)

/-! ## The frame -/

/-- The program runs to the end, nothing faulting, and its four argument arrays end as they began: an input window's
    array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 0).trans (((dats m 0 c).arrAt_in 0 rfl _).trans (A_eq m c 0)),
     (h c 2).trans (((dats m 0 c).arrAt_in 2 rfl _).trans (A_eq m c 2)),
     (h c 3).trans (((dats m 0 c).arrAt_in 3 rfl _).trans (A_eq m c 3)),
     (h c 4).trans (((dats m 0 c).arrAt_in 4 rfl _).trans (A_eq m c 4))⟩) (run_arrays m ρ)

end Cert.KernelIdeal.Run

end
-- ==== Proof.SageKernelRunBits.lean ====
/-
  The kernel's run. One grid point i of 25 takes the adjacency rows 400 i … 400 i + 199 and 400 i + 200 … 400 i + 399
  as two blocks of 200 rows (two windows on the ONE adjacency array), all the features, and the two weight arrays, and
  writes rows 400 i … 400 i + 399 of the result: the first 200 from the first block, the last 200 from the second.
  Nothing is kept from point to point; every input buffer is left as found.
-/
import proofs.«108482_g5428838662690_cont_9to1_m_1089_7_alg».proof.Proof.Gen.Kernel.Launch
import proofs.«108482_g5428838662690_cont_9to1_m_1089_7_alg».proof.Proof.Gen.Kernel.Skeleton
import proofs.«108482_g5428838662690_cont_9to1_m_1089_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

/-- A whole block of 200 adjacency rows. -/
abbrev rAdj : Rect S200x10000 := Rect.unit (s := S200x10000) ![0, 0] S200x10000.size inb_S200x10000_S200x10000_0_0
/-- All the features. -/
abbrev rFeat : Rect S10000x128 := Rect.unit (s := S10000x128) ![0, 0] S10000x128.size inb_S10000x128_S10000x128_0_0
/-- The neighbour weights, whole. -/
abbrev rWn : Rect S128x128 := Rect.unit (s := S128x128) ![0, 0] S128x128.size inb_S128x128_S128x128_0_0
/-- The first 128 input columns of the joined weights, and the last 128. -/
abbrev rWl1 : Rect S128x256 := Rect.unit (s := S128x256) ![0, 0] S128x128.size inb_S128x256_S128x128_0_0
abbrev rWl2 : Rect S128x256 := Rect.unit (s := S128x256) ![0, 128] S128x128.size inb_S128x256_S128x128_0_128
/-- The feature rows of the point's first half block, and of its second. -/
abbrev rFa (i : grid0.Coords) : Rect S10000x128 := Rect.unit (s := S10000x128) (k0_off1 i) S200x128.size (k0_off1_inb i)
abbrev rFb (i : grid0.Coords) : Rect S10000x128 := Rect.unit (s := S10000x128) (k0_off2 i) S200x128.size (k0_off2_inb i)
/-- The two halves of the output block. -/
abbrev rOutA : Rect S400x128 := Rect.unit (s := S400x128) ![0, 0] S200x128.size inb_S400x128_S200x128_0_0
abbrev rOutB : Rect S400x128 := Rect.unit (s := S400x128) ![200, 0] S200x128.size inb_S400x128_S200x128_200_0

/-! ## What the body leaves in the output block -/

/-- The first half's 200 rows, from what the point loaded. -/
def halfA (i : grid0.Coords) (x0 : Vec F S200x10000 .f32) (x2 : Vec F S10000x128 .f32) (x3 : Vec F S128x128 .f32) (x4 : Vec F S128x256 .f32) :
    FVec F S200x128 .f32 :=
  k0_pay1 (k0_pay3 (View.ld x0 rAdj) (View.ld x2 rFeat)) (k0_pay5 (View.ld x0 rAdj)) (k0_pay7 (View.ld x4 rWl2) (View.ld x3 rWn))
    (k0_pay8 (View.ld x4 rWl1) (View.ld x2 (rFa i)))
/-- The second half's. -/
def halfB (i : grid0.Coords) (x1 : Vec F S200x10000 .f32) (x2 : Vec F S10000x128 .f32) (x3 : Vec F S128x128 .f32) (x4 : Vec F S128x256 .f32) :
    FVec F S200x128 .f32 :=
  k0_pay2 (k0_pay4 (View.ld x1 rAdj) (View.ld x2 rFeat)) (k0_pay6 (View.ld x1 rAdj)) (View.ld x4 rWl1) (k0_pay7 (View.ld x4 rWl2) (View.ld x3 rWn))
    (View.ld x2 (rFb i))

/-- The output block after the body: its two stores as pieces, the last first. -/
def outBlock (i : grid0.Coords) (x0 x1 : Vec F S200x10000 .f32) (x2 : Vec F S10000x128 .f32) (x3 : Vec F S128x128 .f32) (x4 : Vec F S128x256 .f32) :
    Vec F S400x128 .f32 :=
  View.canon [⟨rOutB, halfB i x1 x2 x3 x4⟩, ⟨rOutA, halfA i x0 x2 x3 x4⟩]

/-- The two halves tile the block. -/
theorem outCover (p0 p1 : Vec F S200x128 .f32) (y : S400x128.Idx) :
    ∃ pc ∈ ([⟨rOutB, p1⟩, ⟨rOutA, p0⟩] : List (View.Piece (Elt F) S400x128 .f32)), y ∈ pc.1.set :=
  View.cover_of_tiled [⟨rOutB, p1⟩, ⟨rOutA, p0⟩] S200x128.size (by rfl) y

/-! ## The body's triple -/

set_option maxHeartbeats 1000000 in
/-- The body on whole staging buffers, the five inputs' at contents `x0 … x4` and the output's at anything, runs to the
    end leaving the inputs' as they were and the output's at `outBlock`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x256 .f32) (harg5 : arg5.IsWhole) (arg6 : Memref sig .tc .vmem S400x128 .f32) (harg6 : arg6.IsWhole)
    (x0 x1 : Vec F S200x10000 .f32) (x2 : Vec F S10000x128 .f32) (x3 : Vec F S128x128 .f32) (x4 : Vec F S128x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock i x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _ _)

/-! ## The arrays as the region finds them, and the windows' blocks -/

/-- Core `c`'s buffers when the region is entered: as launched (the program is the region alone). -/
abbrev V (c : Dev nD) (b : Ref sig .tc) : Buf (Elt F) ((c : Thread nD τ).loc b) := m ((c : Thread nD τ).loc b)

/-- The program up to its region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region's and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its block and
    the output's at `outBlock` of the input blocks; the invariant the scoped buffers no window stages (there is none);
    nothing owed; the adjacency array, which two windows read, held half by each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (grid0.coords t) (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlock (grid0.coords t) (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t := before_0_of m (dats m 0 c) (A_eq m c 0) (after_0 m c) t d
theorem before_1 (c : Dev nD) (t : Fin cfg0.N) (d) : (dats m 0 c).before 1 t d = iblk m c 1 t := before_1_of m (dats m 0 c) (A_eq m c 1) (after_1 m c) t d
theorem before_2 (c : Dev nD) (t : Fin cfg0.N) (d) : (dats m 0 c).before 2 t d = iblk m c 2 t := before_2_of m (dats m 0 c) (A_eq m c 2) (after_2 m c) t d
theorem before_3 (c : Dev nD) (t : Fin cfg0.N) (d) : (dats m 0 c).before 3 t d = iblk m c 3 t := before_3_of m (dats m 0 c) (A_eq m c 3) (after_3 m c) t d
theorem before_4 (c : Dev nD) (t : Fin cfg0.N) (d) : (dats m 0 c).before 4 t d = iblk m c 4 t := before_4_of m (dats m 0 c) (A_eq m c 4) (after_4 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- The five buffers behind the six windows' arrays, conjoined one by one. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_arg3 ∗ Φ main_v0) :=
  bigSep_eq_bigSepL_of_eq [main_arg0, main_arg1, main_arg2, main_arg3, main_v0] (by decide) (by decide) Φ

/-- A window's array, a whole buffer, held at the window's share at the entry contents. -/
theorem arr_at_share (c : Dev nD) (w : Fin cfg0.W) (q : PosShare TreeShare) (hq : (dats m 0 c).share w = q) :
    (((c.tc : Thread nD τ).loc (Pipeline.arrRef spec0 w)) ↦{q} V m c (Pipeline.arrRef spec0 w) : sProp 𝕄)
      ⊢ (cfg0.win w).arr.view.loc (c.tc : Thread nD τ) ↦[(cfg0.win w).arr.view.set]{(dats m 0 c).share w} (dats m 0 c).arrAt w 0 := by
  rw [(arr_whole0 w).set_eq_univ, hq]; exact .rfl

/-- The buffers behind the arrays, each held whole at the region's entry, make the windows' arrays: the adjacency
    array, read through two windows, split into its two half shares, one per window. -/
theorem arrays_entry (c : Dev nD) :
    (Pipeline.arrBufs spec0 c (V m c) : sProp 𝕄) ⊢ (dats m 0 c).arrays ((dats m 0 c).arrAt · 0) := by
  classical
  unfold Pipeline.arrBufs Dat.arrays
  rw [bigSep_arrs, bigSep_W0]
  iintro ⟨Ha, Hf, Hn, Hl, Ho⟩
  ihave Ha' := (pointsTo_share (PosShare.mem_left_op_right fullShare)).1 $$ Ha
  icases Ha' with ⟨Ha1, Ha2⟩
  isplitl [Ha1]; · iapply (arr_at_share m c 0 fullShare.left rfl); iexact Ha1
  isplitl [Ha2]; · iapply (arr_at_share m c 1 fullShare.right rfl); iexact Ha2
  isplitl [Hf]; · iapply (arr_at_share m c 2 fullShare rfl); iexact Hf
  isplitl [Hn]; · iapply (arr_at_share m c 3 fullShare rfl); iexact Hn
  isplitl [Hl]; · iapply (arr_at_share m c 4 fullShare rfl); iexact Hl
  iapply (arr_at_share m c 5 fullShare rfl); iexact Ho

/-! ## The run -/

set_option backward.isDefEq.respectTransparency.types false in
/-- From any memory with zero counters every weakly fair execution of the program terminates, nothing faulting, with
    every window's array at what the write-backs of the 25 points leave of it. -/
theorem run_arrays : θ_run defs (onTc (τ := τ) (main (F := F))) (s₀ m ρ)
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_entry m)
    (X := fun _ => iprop(emp)) (Y := fun _ => iprop(emp)) (Z := fun c => Pipeline.unscopedRest spec0 c (V m c))
    (hX := fun c => by iintro H; isplitr; · iempintro
                       iexact H)
    (hin := fun c => by dsimp only [dats]; iintro ⟨-, H⟩; iexact H)
    (hout := fun c => by dsimp only [dats]; iintro H; isplitr; · iempintro
                         iexact H)
    (QY := fun _ _ => True)
    (hY := fun c s' => by
      iintro ⟨-, -, HSI⟩; imodintro
      isplitr; · ipureintro; trivial
      iexact HSI)
    (hQ := fun s h c w => (h c).1 w)

/-! ## The frame -/

/-- The program runs to the end, nothing faulting, and its four argument arrays end as they began: an input window's
    array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 0).trans (((dats m 0 c).arrAt_in 0 rfl _).trans (A_eq m c 0)),
     (h c 2).trans (((dats m 0 c).arrAt_in 2 rfl _).trans (A_eq m c 2)),
     (h c 3).trans (((dats m 0 c).arrAt_in 3 rfl _).trans (A_eq m c 3)),
     (h c 4).trans (((dats m 0 c).arrAt_in 4 rfl _).trans (A_eq m c 4))⟩) (run_arrays m ρ)

end Cert.Kernel.Run

end
-- ==== Proof.SageSpec.lean ====
/-
  The GraphSAGE layer with a dense adjacency, as functions of its four argument arrays over the extended reals:
    adj  : [10000, 10000]   feat : [10000, 128]   wn : [128, 128] (out, in)   wl : [128, 256] (out, in | in)
  With s r = (Σ_j adj r j) + 1 the row's divisor, the layer's value at row r, column p is written in two arrangements.
  The one that aggregates last (the reference's):
    Σ_q feat r q · wl p q  +  Σ_o ((Σ_j adj r j · Σ_k feat j k · wn o k) / s r) · wl p (128 + o)
  and the one that aggregates the raw features first and meets the two weight matrices' product (the kernel's):
    Σ_q feat r q · wl p q  +  Σ_k ((Σ_j adj r j · feat j k) / s r) · (Σ_o wl p (128 + o) · wn o k).
  They agree when every entry is a real number and s r ≠ 0: then the quotient is a product with 1 / s r and both are
  the same triple sum. At s r = 0 the quotient takes the sign of each numerator and the two differ.
  Every index is built from coordinates of literal extents.
-/
import Idealize.ShloMosaic.PureOps.Ideal
import Idealize.ShloMosaic.Lib.ValueIdx

noncomputable section

namespace Cert.Sage

open Idealize.ShloMosaic Idealize.ShloMosaic.ValueIdx

/-- Column `q` of the first half of the 256 joined input columns. -/
def lo (q : Fin 128) : Fin 256 := ⟨q.val, by omega⟩
/-- Column `o` of the second half. -/
def hi (o : Fin 128) : Fin 256 := ⟨128 + o.val, by omega⟩

/-- The float literal 1.0, as the extended real its pattern denotes. -/
abbrev one : EReal := Ideal.ofBits .f32 0x3F800000#32

/-- A row's divisor: the sum of the adjacency row, plus one. -/
def denom (adj : (⟨2, ![10000, 10000]⟩ : Shape).Idx → EReal) (r : Fin 10000) : EReal :=
  (∑ j : Fin 10000, adj (ix2 r j)) + one

/-- The aggregated neighbour features of row `r`, output feature `o`: the adjacency row against the projected
    features, divided by the row's divisor. -/
def agg (adj : (⟨2, ![10000, 10000]⟩ : Shape).Idx → EReal) (feat : (⟨2, ![10000, 128]⟩ : Shape).Idx → EReal)
    (wn : (⟨2, ![128, 128]⟩ : Shape).Idx → EReal) (r : Fin 10000) (o : Fin 128) : EReal :=
  Ideal.div (∑ j : Fin 10000, adj (ix2 r j) * ∑ k : Fin 128, feat (ix2 j k) * wn (ix2 o k)) (denom adj r)

/-- The layer at (r, p), aggregating last. -/
def refAt (adj : (⟨2, ![10000, 10000]⟩ : Shape).Idx → EReal) (feat : (⟨2, ![10000, 128]⟩ : Shape).Idx → EReal)
    (wn : (⟨2, ![128, 128]⟩ : Shape).Idx → EReal) (wl : (⟨2, ![128, 256]⟩ : Shape).Idx → EReal)
    (r : Fin 10000) (p : Fin 128) : EReal :=
  (∑ q : Fin 128, feat (ix2 r q) * wl (ix2 p (lo q))) + ∑ o : Fin 128, agg adj feat wn r o * wl (ix2 p (hi o))

/-- The layer at (r, p), aggregating the raw features first. -/
def outAt (adj : (⟨2, ![10000, 10000]⟩ : Shape).Idx → EReal) (feat : (⟨2, ![10000, 128]⟩ : Shape).Idx → EReal)
    (wn : (⟨2, ![128, 128]⟩ : Shape).Idx → EReal) (wl : (⟨2, ![128, 256]⟩ : Shape).Idx → EReal)
    (r : Fin 10000) (p : Fin 128) : EReal :=
  (∑ q : Fin 128, feat (ix2 r q) * wl (ix2 p (lo q)))
    + ∑ k : Fin 128, Ideal.div (∑ j : Fin 10000, adj (ix2 r j) * feat (ix2 j k)) (denom adj r)
        * ∑ o : Fin 128, wl (ix2 p (hi o)) * wn (ix2 o k)

/-- The two arrangements as whole arrays. -/
def refOut (adj : (⟨2, ![10000, 10000]⟩ : Shape).Idx → EReal) (feat : (⟨2, ![10000, 128]⟩ : Shape).Idx → EReal)
    (wn : (⟨2, ![128, 128]⟩ : Shape).Idx → EReal) (wl : (⟨2, ![128, 256]⟩ : Shape).Idx → EReal) :
    (⟨2, ![10000, 128]⟩ : Shape).Idx → EReal :=
  fun i => refAt adj feat wn wl (i 0) (i 1)
def out (adj : (⟨2, ![10000, 10000]⟩ : Shape).Idx → EReal) (feat : (⟨2, ![10000, 128]⟩ : Shape).Idx → EReal)
    (wn : (⟨2, ![128, 128]⟩ : Shape).Idx → EReal) (wl : (⟨2, ![128, 256]⟩ : Shape).Idx → EReal) :
    (⟨2, ![10000, 128]⟩ : Shape).Idx → EReal :=
  fun i => outAt adj feat wn wl (i 0) (i 1)

/-- What one grid point computes for one half block of 200 rows, from what it loaded: `A` the 200 adjacency rows,
    `feat` all the features, `fa` the same 200 rows of the features, `wl1` / `wl2` the two halves of `wl`. -/
def blockAt (A : (⟨2, ![200, 10000]⟩ : Shape).Idx → EReal) (feat : (⟨2, ![10000, 128]⟩ : Shape).Idx → EReal)
    (wn wl1 wl2 : (⟨2, ![128, 128]⟩ : Shape).Idx → EReal) (fa : (⟨2, ![200, 128]⟩ : Shape).Idx → EReal)
    (r : Fin 200) (p : Fin 128) : EReal :=
  (∑ q : Fin 128, fa (ix2 r q) * wl1 (ix2 p q))
    + ∑ k : Fin 128, Ideal.div (∑ j : Fin 10000, A (ix2 r j) * feat (ix2 j k)) ((∑ j : Fin 10000, A (ix2 r j)) + one)
        * ∑ o : Fin 128, wl2 (ix2 p o) * wn (ix2 o k)

end Cert.Sage

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.SageBody.lean ====
/-
  What one grid point's arithmetic computes, read at an index, over the extended reals.

  Each product of two arrays into a zero accumulator is, at (r, p), the sum over the contracted coordinate of the
  operands' products; the row sum of the adjacency block is the sum over its columns; the divisor is that sum plus one,
  spread along the row; and the stored value is the self term plus the product of the quotient with the two weight
  matrices' product. Only sums are re-indexed: no law that needs a finite value is used.
-/
import proofs.«108482_g5428838662690_cont_9to1_m_1089_7_alg».proof.Proof.SageSpec
import proofs.«108482_g5428838662690_cont_9to1_m_1089_7_alg».proof.Proof.Gen.KernelIdeal.Skeleton
import proofs.«108482_g5428838662690_cont_9to1_m_1089_7_alg».proof.Proof.LibColumnLayouts
import Idealize.ShloMosaic.PureOps.Ideal.Laws
import Idealize.ShloMosaic.Lib.ValueIdx
import Idealize.ShloMosaic.Lib.Pipeline.Value

noncomputable section

namespace Cert.Sage.Body

open Cert.KernelIdeal Cert.KernelIdeal.Gen Idealize.ShloMosaic Idealize.ShloMosaic.ValueIdx

variable [Cert.KernelIdeal.Facts]

private theorem dot_big_apply_lhs0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl
private theorem dot_big_apply_lhs1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
private theorem dot_big_apply_rhs0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
private theorem dot_big_apply_rhs1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-- The [200,10000] × [10000,128] product into zeros, at (r, p): the row of the left against the column of the right. -/
theorem dot_big_apply (x : FVec Ideal S200x10000 .f32) (y : FVec Ideal S10000x128 .f32) (r : Fin 200) (p : Fin 128) :
    matmul dot_S200x10000_S10000x128_S200x128_1_0_0_1_n_n none x y (constant (F := Ideal) S200x128 .f32 0x00000000#32) (ix2 r p)
      = ∑ k : Fin 10000, x (ix2 r k) * y (ix2 k p) := by
  refine (Ideal.matmul_constant_zero_apply dot_S200x10000_S10000x128_S200x128_1_0_0_1_n_n none x y (ix2 r p)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r p) ((contrEquiv1 dot_S200x10000_S10000x128_S200x128_1_0_0_1_n_n 10000 rfl rfl).symm k) = ix2 r k :=
    funext fun a => Fin.ext (by
      match a with
      | ⟨0, _⟩ => exact dot_big_apply_lhs0 _ _
      | ⟨1, _⟩ => exact (dot_big_apply_lhs1 _ _).trans hk)
  have er : dot_S200x10000_S10000x128_S200x128_1_0_0_1_n_n.rhsIdx (ix2 r p) ((contrEquiv1 dot_S200x10000_S10000x128_S200x128_1_0_0_1_n_n 10000 rfl rfl).symm k) = ix2 k p :=
    funext fun a => Fin.ext (by
      match a with
      | ⟨0, _⟩ => exact (dot_big_apply_rhs0 _ _).trans hk
      | ⟨1, _⟩ => exact dot_big_apply_rhs1 _ _)
  rw [el, er]

private theorem dot_sq_apply_lhs0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl
private theorem dot_sq_apply_lhs1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
private theorem dot_sq_apply_rhs0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
private theorem dot_sq_apply_rhs1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl

/-- The [128,128] × [128,128] product into zeros, at (r, p). -/
theorem dot_sq_apply (x : FVec Ideal S128x128 .f32) (y : FVec Ideal S128x128 .f32) (r : Fin 128) (p : Fin 128) :
    matmul dot_S128x128_S128x128_S128x128_1_0_0_1_n_n none x y (constant (F := Ideal) S128x128 .f32 0x00000000#32) (ix2 r p)
      = ∑ k : Fin 128, x (ix2 r k) * y (ix2 k p) := by
  refine (Ideal.matmul_constant_zero_apply dot_S128x128_S128x128_S128x128_1_0_0_1_n_n none x y (ix2 r p)).trans ?_
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 r p) ((contrEquiv1 dot_S128x128_S128x128_S128x128_1_0_0_1_n_n 128 rfl rfl).symm k) = ix2 r k :=
    funext fun a => Fin.ext (by
      match a with
      | ⟨0, _⟩ => exact dot_sq_apply_lhs0 _ _
      | ⟨1, _⟩ => exact (dot_sq_apply_lhs1 _ _).trans hk)
  have er : dot_S128x128_S128x128_S128x128_1_0_0_1_n_n.rhsIdx (ix2 r p) ((contrEquiv1 dot_S128x128_S128x128_S128x128_1_0_0_1_n_n 128 rfl rfl).symm k) = ix2 k p :=
    funext fun a => Fin.ext (by
      match a with
      | ⟨0, _⟩ => exact (dot_sq_apply_rhs0 _ _).trans hk
      | ⟨1, _⟩ => exact dot_sq_apply_rhs1 _ _)
  rw [el, er]

private theorem dot_tr_apply_lhs0 (i : S200x128.Idx) (q : dot_S200x128_S128x128_S200x128_1_1_0_0_n_n.contr.Idx) :
    (dot_S200x128_S128x128_S200x128_1_1_0_0_n_n.lhsIdx i q 0).val = (i 0).val := by
  unfold DotDims.lhsIdx
  rw [dif_neg (show ¬(0 : Fin S200x128.rank) ∈ dot_S200x128_S128x128_S200x128_1_1_0_0_n_n.lhsBatch by decide),
    dif_pos (show (0 : Fin S200x128.rank) ∈ dot_S200x128_S128x128_S200x128_1_1_0_0_n_n.lhsNonContracting by decide)]
  rfl
private theorem dot_tr_apply_lhs1 (i : S200x128.Idx) (q : dot_S200x128_S128x128_S200x128_1_1_0_0_n_n.contr.Idx) :
    (dot_S200x128_S128x128_S200x128_1_1_0_0_n_n.lhsIdx i q 1).val = (q ⟨0, by decide⟩).val :=
  dot_S200x128_S128x128_S200x128_1_1_0_0_n_n.lhsIdx_val_of_single rfl i q
private theorem dot_tr_apply_rhs1 (i : S200x128.Idx) (q : dot_S200x128_S128x128_S200x128_1_1_0_0_n_n.contr.Idx) :
    (dot_S200x128_S128x128_S200x128_1_1_0_0_n_n.rhsIdx i q 1).val = (q ⟨0, by decide⟩).val :=
  dot_S200x128_S128x128_S200x128_1_1_0_0_n_n.rhsIdx_val_of_single rfl i q
private theorem dot_tr_apply_rhs0 (i : S200x128.Idx) (q : dot_S200x128_S128x128_S200x128_1_1_0_0_n_n.contr.Idx) :
    (dot_S200x128_S128x128_S200x128_1_1_0_0_n_n.rhsIdx i q 0).val = (i 1).val := by
  unfold DotDims.rhsIdx
  rw [dif_neg (show ¬(0 : Fin S128x128.rank) ∈ dot_S200x128_S128x128_S200x128_1_1_0_0_n_n.rhsBatch by decide),
    dif_pos (show (0 : Fin S128x128.rank) ∈ dot_S200x128_S128x128_S200x128_1_1_0_0_n_n.rhsNonContracting by decide)]
  rfl

/-- The [200,128] × [128,128] product contracting both operands' second axes, at (r, p): row r against ROW p of the right. -/
theorem dot_tr_apply (x : FVec Ideal S200x128 .f32) (y : FVec Ideal S128x128 .f32) (r : Fin 200) (p : Fin 128) :
    matmul dot_S200x128_S128x128_S200x128_1_1_0_0_n_n none x y (constant (F := Ideal) S200x128 .f32 0x00000000#32) (ix2 r p)
      = ∑ k : Fin 128, x (ix2 r k) * y (ix2 p k) := by
  refine (Ideal.matmul_constant_zero_apply dot_S200x128_S128x128_S200x128_1_1_0_0_n_n none x y (ix2 r p)).trans ?_
  rw [← Equiv.sum_comp (contrEquiv1 dot_S200x128_S128x128_S200x128_1_1_0_0_n_n 128 rfl rfl).symm]
  refine Finset.sum_congr rfl fun k _ => ?_
  have hk := contrEquiv1_symm_val dot_S200x128_S128x128_S200x128_1_1_0_0_n_n 128 rfl rfl k
  have el : dot_S200x128_S128x128_S200x128_1_1_0_0_n_n.lhsIdx (ix2 r p) ((contrEquiv1 dot_S200x128_S128x128_S200x128_1_1_0_0_n_n 128 rfl rfl).symm k) = ix2 r k :=
    funext fun a => Fin.ext (by
      match a with
      | ⟨0, _⟩ => exact dot_tr_apply_lhs0 _ _
      | ⟨1, _⟩ => exact (dot_tr_apply_lhs1 _ _).trans hk)
  have er : dot_S200x128_S128x128_S200x128_1_1_0_0_n_n.rhsIdx (ix2 r p) ((contrEquiv1 dot_S200x128_S128x128_S200x128_1_1_0_0_n_n 128 rfl rfl).symm k) = ix2 p k :=
    funext fun a => Fin.ext (by
      match a with
      | ⟨1, _⟩ => exact (dot_tr_apply_rhs1 _ _).trans hk
      | ⟨0, _⟩ => exact dot_tr_apply_rhs0 _ _)
  rw [el, er]

/-- The sum of the [200,10000] block along its rows, at row r: the sum over the columns. -/
theorem rowsum_apply (A : FVec Ideal S200x10000 .f32) (h : S200x10000.Reduces [1] S200) (hφ : FKind.Formats .f32)
    (hacc : (0x00000000#32 : BitVec 32) = FKind.add.neutral .f32 hφ) (r : Fin 200) :
    multiReduction (F := Ideal) .add [1] S200 A 0x00000000#32 h hφ hacc (ix1 r) = ∑ j : Fin 10000, A (ix2 r j) := by
  refine (Ideal.multiReduction_add_single A 0x00000000#32 h hφ hacc (ix1 r)).trans ?_
  refine Finset.sum_congr rfl fun k _ => congrArg A ?_
  funext c
  apply Fin.ext
  match c with
  | ⟨0, _⟩ => rfl
  | ⟨1, _⟩ => rfl

/-- The aggregate numerator: the adjacency block against the features. -/
theorem pay3_apply (A : Vec Ideal S200x10000 .f32) (feat : Vec Ideal S10000x128 .f32) (r : Fin 200) (p : Fin 128) :
    k0_pay3 (F := Ideal) A feat (ix2 r p) = ∑ j : Fin 10000, A (ix2 r j) * feat (ix2 j p) := by
  unfold k0_pay3
  exact dot_big_apply A feat r p

theorem pay4_apply (B : Vec Ideal S200x10000 .f32) (feat : Vec Ideal S10000x128 .f32) (r : Fin 200) (p : Fin 128) :
    k0_pay4 (F := Ideal) B feat (ix2 r p) = ∑ j : Fin 10000, B (ix2 r j) * feat (ix2 j p) := by
  unfold k0_pay4
  exact dot_big_apply B feat r p

/-- The divisor column: the row sum plus one. -/
theorem pay5_apply (A : Vec Ideal S200x10000 .f32) (r : Fin 200) (u : Fin 1) :
    k0_pay5 (F := Ideal) A (ix2 r u) = (∑ j : Fin 10000, A (ix2 r j)) + Cert.Sage.one := by
  unfold k0_pay5
  refine (addf_apply _ _ (ix2 r u)).trans ?_
  refine congrArg (· + Cert.Sage.one) ?_
  refine (Cert.ColumnLayouts.shapeCast_a_a1_apply _ _ r u).trans ?_
  exact rowsum_apply A _ _ _ r

theorem pay6_apply (B : Vec Ideal S200x10000 .f32) (r : Fin 200) (u : Fin 1) :
    k0_pay6 (F := Ideal) B (ix2 r u) = (∑ j : Fin 10000, B (ix2 r j)) + Cert.Sage.one := by
  unfold k0_pay6
  refine (addf_apply _ _ (ix2 r u)).trans ?_
  refine congrArg (· + Cert.Sage.one) ?_
  refine (Cert.ColumnLayouts.shapeCast_a_a1_apply _ _ r u).trans ?_
  exact rowsum_apply B _ _ _ r

/-- The two weight matrices' product. -/
theorem pay7_apply (wl2 wn : Vec Ideal S128x128 .f32) (p k : Fin 128) :
    k0_pay7 (F := Ideal) wl2 wn (ix2 p k) = ∑ o : Fin 128, wl2 (ix2 p o) * wn (ix2 o k) := by
  unfold k0_pay7
  exact dot_sq_apply wl2 wn p k

/-- The self term: the block's own feature rows against the first half of the joined weights. -/
theorem pay8_apply (wl1 : Vec Ideal S128x128 .f32) (fa : Vec Ideal S200x128 .f32) (r : Fin 200) (p : Fin 128) :
    k0_pay8 (F := Ideal) wl1 fa (ix2 r p) = ∑ q : Fin 128, fa (ix2 r q) * wl1 (ix2 p q) := by
  unfold k0_pay8
  exact dot_tr_apply fa wl1 r p

/-- The first stored half block at (r, p) from its four operands at an index: the self term plus the sum over k of the
    quotient of the numerator by the row's divisor, times the weights' product at (p, k). -/
theorem pay1_read (v2 : FVec Ideal S200x128 .f32) (v10 : FVec Ideal S200x1 .f32) (v19 : FVec Ideal S128x128 .f32)
    (v27 : FVec Ideal S200x128 .f32) (r : Fin 200) (p : Fin 128) :
    k0_pay1 (F := Ideal) v2 v10 v19 v27 (ix2 r p)
      = v27 (ix2 r p) + ∑ k : Fin 128, Ideal.div (v2 (ix2 r k)) (v10 (ix2 r (0 : Fin 1))) * v19 (ix2 p k) := by
  unfold k0_pay1
  refine (addf_apply _ _ (ix2 r p)).trans ?_
  refine congrArg (v27 (ix2 r p) + ·) ?_
  refine (dot_tr_apply _ v19 r p).trans ?_
  refine Finset.sum_congr rfl fun k _ => congrArg (· * v19 (ix2 p k)) ?_
  refine (divf_apply _ _ (ix2 r k)).trans ?_
  exact congrArg (Ideal.div (v2 (ix2 r k))) (Cert.ColumnLayouts.broadcastTo_a1_ab_apply v10 _ r k)

/-- The second stored half block likewise; here the self term is formed inside the same expression. -/
theorem pay2_read (v5 : FVec Ideal S200x128 .f32) (v15 : FVec Ideal S200x1 .f32) (v16 : Vec Ideal S128x128 .f32)
    (v19 : FVec Ideal S128x128 .f32) (v26 : Vec Ideal S200x128 .f32) (r : Fin 200) (p : Fin 128) :
    k0_pay2 (F := Ideal) v5 v15 v16 v19 v26 (ix2 r p)
      = (∑ q : Fin 128, v26 (ix2 r q) * v16 (ix2 p q))
        + ∑ k : Fin 128, Ideal.div (v5 (ix2 r k)) (v15 (ix2 r (0 : Fin 1))) * v19 (ix2 p k) := by
  unfold k0_pay2
  refine (addf_apply _ _ (ix2 r p)).trans ?_
  refine congrArg₂ (· + ·) (dot_tr_apply v26 v16 r p) ?_
  refine (dot_tr_apply _ v19 r p).trans ?_
  refine Finset.sum_congr rfl fun k _ => congrArg (· * v19 (ix2 p k)) ?_
  refine (divf_apply _ _ (ix2 r k)).trans ?_
  exact congrArg (Ideal.div (v5 (ix2 r k))) (Cert.ColumnLayouts.broadcastTo_a1_ab_apply v15 _ r k)

/-- The first stored half block is the layer's kernel arrangement on its 200 rows. -/
theorem pay1_apply (A : Vec Ideal S200x10000 .f32) (feat : Vec Ideal S10000x128 .f32) (wl1 wl2 wn : Vec Ideal S128x128 .f32)
    (fa : Vec Ideal S200x128 .f32) (r : Fin 200) (p : Fin 128) :
    k0_pay1 (F := Ideal) (k0_pay3 A feat) (k0_pay5 A) (k0_pay7 wl2 wn) (k0_pay8 wl1 fa) (ix2 r p)
      = Cert.Sage.blockAt A feat wn wl1 wl2 fa r p := by
  refine (pay1_read _ _ _ _ r p).trans ?_
  unfold Cert.Sage.blockAt
  refine congrArg₂ (· + ·) (pay8_apply wl1 fa r p) ?_
  refine Finset.sum_congr rfl fun k _ => ?_
  rw [pay3_apply A feat r k, pay5_apply A r 0, pay7_apply wl2 wn p k]

/-- The second stored half block likewise. -/
theorem pay2_apply (B : Vec Ideal S200x10000 .f32) (feat : Vec Ideal S10000x128 .f32) (wl1 wl2 wn : Vec Ideal S128x128 .f32)
    (fb : Vec Ideal S200x128 .f32) (r : Fin 200) (p : Fin 128) :
    k0_pay2 (F := Ideal) (k0_pay4 B feat) (k0_pay6 B) wl1 (k0_pay7 wl2 wn) fb (ix2 r p)
      = Cert.Sage.blockAt B feat wn wl1 wl2 fb r p := by
  refine (pay2_read _ _ _ _ _ r p).trans ?_
  unfold Cert.Sage.blockAt
  refine congrArg₂ (· + ·) rfl ?_
  refine Finset.sum_congr rfl fun k _ => ?_
  rw [pay4_apply B feat r k, pay6_apply B r 0, pay7_apply wl2 wn p k]

end Cert.Sage.Body

end
-- ==== Proof.SageHalves.lean ====
/-
  The two half blocks one grid point stores, at an index, in terms of the five arrays it loaded.

  Point i of 25 reads its 200 adjacency rows whole, all the features, the neighbour weights whole, the two halves of
  the joined weights as column windows at 0 and at 128, and the feature rows 400 i … 400 i + 199 (first half) or
  400 i + 200 … 400 i + 399 (second half). A window's entry at local (a, b) is the array's at (offset + a, offset + b);
  substituting these into the stored value's sums gives the layer's kernel arrangement on the point's rows.
-/
import proofs.«108482_g5428838662690_cont_9to1_m_1089_7_alg».proof.Proof.SageSpec
import proofs.«108482_g5428838662690_cont_9to1_m_1089_7_alg».proof.Proof.SageBody
import proofs.«108482_g5428838662690_cont_9to1_m_1089_7_alg».proof.Proof.SageKernelRun
import Idealize.ShloMosaic.Lib.ValueIdx
import Idealize.ShloMosaic.Lib.Pipeline.Value
import Idealize.ShloMosaic.Lib.Pipeline.FrameBody

noncomputable section

namespace Cert.Sage.Halves

open Cert.KernelIdeal Cert.KernelIdeal.Gen Cert.KernelIdeal.Run Cert.Sage Idealize.ShloMosaic Idealize.ShloMosaic.ValueIdx

variable [Cert.KernelIdeal.Facts]

/-- The array row of local row `r` of the point's first half block, and of its second. -/
def rowA (i : grid0.Coords) (r : Fin 200) : Fin 10000 := ⟨400 * (i 0).val + r.val, by have h : (i 0).val < 25 := (i 0).isLt; omega⟩
def rowB (i : grid0.Coords) (r : Fin 200) : Fin 10000 := ⟨400 * (i 0).val + 200 + r.val, by have h : (i 0).val < 25 := (i 0).isLt; omega⟩

/-- A whole adjacency block read through its own extent is the block. -/
theorem ld_adj (x : Vec Ideal S200x10000 .f32) (a : Fin 200) (b : Fin 10000) :
    View.ld x rAdj (ix2 a b) = x (ix2 a b) := by
  show x (rAdj.idx _) = x _
  refine congrArg x (funext fun c => Fin.ext ?_)
  match c with
  | ⟨0, _⟩ => show 0 + 1 * a.val = a.val; omega
  | ⟨1, _⟩ => show 0 + 1 * b.val = b.val; omega

/-- All the features likewise. -/
theorem ld_feat (x : Vec Ideal S10000x128 .f32) (a : Fin 10000) (b : Fin 128) :
    View.ld x rFeat (ix2 a b) = x (ix2 a b) := by
  show x (rFeat.idx _) = x _
  refine congrArg x (funext fun c => Fin.ext ?_)
  match c with
  | ⟨0, _⟩ => show 0 + 1 * a.val = a.val; omega
  | ⟨1, _⟩ => show 0 + 1 * b.val = b.val; omega

/-- The neighbour weights likewise. -/
theorem ld_wn (x : Vec Ideal S128x128 .f32) (a : Fin 128) (b : Fin 128) :
    View.ld x rWn (ix2 a b) = x (ix2 a b) := by
  show x (rWn.idx _) = x _
  refine congrArg x (funext fun c => Fin.ext ?_)
  match c with
  | ⟨0, _⟩ => show 0 + 1 * a.val = a.val; omega
  | ⟨1, _⟩ => show 0 + 1 * b.val = b.val; omega

/-- The first 128 input columns of the joined weights: column q of the window is column q of the array. -/
theorem ld_wl1 (x : Vec Ideal S128x256 .f32) (p q : Fin 128) :
    View.ld x rWl1 (ix2 p q) = x (ix2 p (lo q)) := by
  show x (rWl1.idx _) = x _
  refine congrArg x (funext fun c => Fin.ext ?_)
  match c with
  | ⟨0, _⟩ => show 0 + 1 * p.val = p.val; omega
  | ⟨1, _⟩ => show 0 + 1 * q.val = q.val; omega

/-- The last 128: column o of the window is column 128 + o of the array. -/
theorem ld_wl2 (x : Vec Ideal S128x256 .f32) (p o : Fin 128) :
    View.ld x rWl2 (ix2 p o) = x (ix2 p (hi o)) := by
  show x (rWl2.idx _) = x _
  refine congrArg x (funext fun c => Fin.ext ?_)
  match c with
  | ⟨0, _⟩ => show 0 + 1 * p.val = p.val; omega
  | ⟨1, _⟩ => show 128 + 1 * o.val = 128 + o.val; omega

/-- The first half's feature rows: local row r is array row 400 i + r. -/
theorem ld_fa (i : grid0.Coords) (x : Vec Ideal S10000x128 .f32) (r : Fin 200) (q : Fin 128) :
    View.ld x (rFa i) (ix2 r q) = x (ix2 (rowA i r) q) := by
  have h0 : k0_off1 i 0 = 400 * (i 0).val := by rw [k0_off1_eq]; rfl
  have h1 : k0_off1 i 1 = 0 := by rw [k0_off1_eq]; rfl
  show x ((rFa i).idx _) = x _
  refine congrArg x (funext fun c => Fin.ext ?_)
  match c with
  | ⟨0, _⟩ => show k0_off1 i 0 + 1 * r.val = 400 * (i 0).val + r.val; rw [h0]; omega
  | ⟨1, _⟩ => show k0_off1 i 1 + 1 * q.val = q.val; rw [h1]; omega

/-- The second half's: local row r is array row 400 i + 200 + r. -/
theorem ld_fb (i : grid0.Coords) (x : Vec Ideal S10000x128 .f32) (r : Fin 200) (q : Fin 128) :
    View.ld x (rFb i) (ix2 r q) = x (ix2 (rowB i r) q) := by
  have h0 : k0_off2 i 0 = 400 * (i 0).val + 200 := by rw [k0_off2_eq]; rfl
  have h1 : k0_off2 i 1 = 0 := by rw [k0_off2_eq]; rfl
  show x ((rFb i).idx _) = x _
  refine congrArg x (funext fun c => Fin.ext ?_)
  match c with
  | ⟨0, _⟩ => show k0_off2 i 0 + 1 * r.val = 400 * (i 0).val + 200 + r.val; rw [h0]; omega
  | ⟨1, _⟩ => show k0_off2 i 1 + 1 * q.val = q.val; rw [h1]; omega

/-- The first half block at (r, p), over the loaded arrays. -/
theorem halfA_at (i : grid0.Coords) (x0 : Vec Ideal S200x10000 .f32) (x2 : Vec Ideal S10000x128 .f32) (x3 : Vec Ideal S128x128 .f32)
    (x4 : Vec Ideal S128x256 .f32) (r : Fin 200) (p : Fin 128) :
    halfA (F := Ideal) i x0 x2 x3 x4 (ix2 r p)
      = (∑ q : Fin 128, x2 (ix2 (rowA i r) q) * x4 (ix2 p (lo q)))
        + ∑ k : Fin 128, Ideal.div (∑ j : Fin 10000, x0 (ix2 r j) * x2 (ix2 j k)) ((∑ j : Fin 10000, x0 (ix2 r j)) + one)
            * ∑ o : Fin 128, x4 (ix2 p (hi o)) * x3 (ix2 o k) := by
  unfold halfA
  refine (Cert.Sage.Body.pay1_apply (View.ld x0 rAdj) (View.ld x2 rFeat) (View.ld x4 rWl1) (View.ld x4 rWl2) (View.ld x3 rWn)
    (View.ld x2 (rFa i)) r p).trans ?_
  unfold Cert.Sage.blockAt
  refine congrArg₂ (· + ·) (Finset.sum_congr rfl fun q _ => congrArg₂ (· * ·) (ld_fa i x2 r q) (ld_wl1 x4 p q))
    (Finset.sum_congr rfl fun k _ => congrArg₂ (· * ·) (congrArg₂ Ideal.div ?_ (congrArg (· + one) ?_)) ?_)
  · exact Finset.sum_congr rfl fun j _ => congrArg₂ (· * ·) (ld_adj x0 r j) (ld_feat x2 j k)
  · exact Finset.sum_congr rfl fun j _ => ld_adj x0 r j
  · exact Finset.sum_congr rfl fun o _ => congrArg₂ (· * ·) (ld_wl2 x4 p o) (ld_wn x3 o k)

/-- The second half block at (r, p) likewise. -/
theorem halfB_at (i : grid0.Coords) (x1 : Vec Ideal S200x10000 .f32) (x2 : Vec Ideal S10000x128 .f32) (x3 : Vec Ideal S128x128 .f32)
    (x4 : Vec Ideal S128x256 .f32) (r : Fin 200) (p : Fin 128) :
    halfB (F := Ideal) i x1 x2 x3 x4 (ix2 r p)
      = (∑ q : Fin 128, x2 (ix2 (rowB i r) q) * x4 (ix2 p (lo q)))
        + ∑ k : Fin 128, Ideal.div (∑ j : Fin 10000, x1 (ix2 r j) * x2 (ix2 j k)) ((∑ j : Fin 10000, x1 (ix2 r j)) + one)
            * ∑ o : Fin 128, x4 (ix2 p (hi o)) * x3 (ix2 o k) := by
  unfold halfB
  refine (Cert.Sage.Body.pay2_apply (View.ld x1 rAdj) (View.ld x2 rFeat) (View.ld x4 rWl1) (View.ld x4 rWl2) (View.ld x3 rWn)
    (View.ld x2 (rFb i)) r p).trans ?_
  unfold Cert.Sage.blockAt
  refine congrArg₂ (· + ·) (Finset.sum_congr rfl fun q _ => congrArg₂ (· * ·) (ld_fb i x2 r q) (ld_wl1 x4 p q))
    (Finset.sum_congr rfl fun k _ => congrArg₂ (· * ·) (congrArg₂ Ideal.div ?_ (congrArg (· + one) ?_)) ?_)
  · exact Finset.sum_congr rfl fun j _ => congrArg₂ (· * ·) (ld_adj x1 r j) (ld_feat x2 j k)
  · exact Finset.sum_congr rfl fun j _ => ld_adj x1 r j
  · exact Finset.sum_congr rfl fun o _ => congrArg₂ (· * ·) (ld_wl2 x4 p o) (ld_wn x3 o k)

end Cert.Sage.Halves

end
-- ==== Proof.SageKernelValue.lean ====
/-
  The result array of the idealized kernel as ONE function of the four argument arrays. Point t of the 25 writes back
  rows 400 t … 400 t + 399; its first 200 rows are computed from adjacency rows 400 t … 400 t + 199 (block 2 t of the
  first window), its last 200 from rows 400 t + 200 … 400 t + 399 (block 2 t + 1 of the second), against all the
  features and both weight arrays, which every point finds whole. The 25 blocks tile the 10000 rows.
-/
import proofs.«108482_g5428838662690_cont_9to1_m_1089_7_alg».proof.Proof.SageSpec
import proofs.«108482_g5428838662690_cont_9to1_m_1089_7_alg».proof.Proof.SageKernelRun
import proofs.«108482_g5428838662690_cont_9to1_m_1089_7_alg».proof.Proof.SageHalves
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Run Cert.Sage Cert.Sage.Halves
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits -/

/-- The printed index maps over the grid: the two adjacency windows at blocks 2 t and 2 t + 1 of 200 rows, the features
    and the weights at their one block, the output at block t of 400 rows; the grid coordinate of point t is t. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ ((grid0.coords t) 0).val = t.val :=
  (by decide +kernel : ∀ t : Fin grid0.N, _)

/-- Row r of the first adjacency half block at point t is array row 400 t + r. -/
theorem adjA_at (c : Dev nD) (t : Fin cfg0.N) (r : Fin 200) (j : Fin 10000) :
    iblk m c 0 t (ix2 r j) = V m c main_arg0 (ix2 (rowA (grid0.coords t) r) j) := by
  obtain ⟨e0, e1, -, -, -, -, -, -, -, -, -, -, eg⟩ := idx_facts t
  show V m c main_arg0 (((cfg0.win 0).blk t).view.emb (ix2 r j)) = _
  refine congrArg (V m c main_arg0) ?_
  funext a; apply Fin.ext
  match a with
  | ⟨0, _⟩ => show win0_0.index t (0 : Fin 2) * 200 + 1 * r.val = 400 * ((grid0.coords t) 0).val + r.val; omega
  | ⟨1, _⟩ => show win0_0.index t (1 : Fin 2) * 10000 + 1 * j.val = j.val; omega

/-- Row r of the second is array row 400 t + 200 + r. -/
theorem adjB_at (c : Dev nD) (t : Fin cfg0.N) (r : Fin 200) (j : Fin 10000) :
    iblk m c 1 t (ix2 r j) = V m c main_arg0 (ix2 (rowB (grid0.coords t) r) j) := by
  obtain ⟨-, -, e0, e1, -, -, -, -, -, -, -, -, eg⟩ := idx_facts t
  show V m c main_arg0 (((cfg0.win 1).blk t).view.emb (ix2 r j)) = _
  refine congrArg (V m c main_arg0) ?_
  funext a; apply Fin.ext
  match a with
  | ⟨0, _⟩ => show win0_1.index t (0 : Fin 2) * 200 + 1 * r.val = 400 * ((grid0.coords t) 0).val + 200 + r.val; omega
  | ⟨1, _⟩ => show win0_1.index t (1 : Fin 2) * 10000 + 1 * j.val = j.val; omega

/-- The features, the neighbour weights and the joined weights are found whole at every point. -/
theorem feat_at (c : Dev nD) (t : Fin cfg0.N) (j : Fin 10000) (k : Fin 128) :
    iblk m c 2 t (ix2 j k) = V m c main_arg1 (ix2 j k) := by
  obtain ⟨-, -, -, -, e0, e1, -⟩ := idx_facts t
  show V m c main_arg1 (((cfg0.win 2).blk t).view.emb (ix2 j k)) = _
  refine congrArg (V m c main_arg1) ?_
  funext a; apply Fin.ext
  match a with
  | ⟨0, _⟩ => show win0_2.index t (0 : Fin 2) * 10000 + 1 * j.val = j.val; omega
  | ⟨1, _⟩ => show win0_2.index t (1 : Fin 2) * 128 + 1 * k.val = k.val; omega
theorem wn_at (c : Dev nD) (t : Fin cfg0.N) (o k : Fin 128) :
    iblk m c 3 t (ix2 o k) = V m c main_arg2 (ix2 o k) := by
  obtain ⟨-, -, -, -, -, -, e0, e1, -⟩ := idx_facts t
  show V m c main_arg2 (((cfg0.win 3).blk t).view.emb (ix2 o k)) = _
  refine congrArg (V m c main_arg2) ?_
  funext a; apply Fin.ext
  match a with
  | ⟨0, _⟩ => show win0_3.index t (0 : Fin 2) * 128 + 1 * o.val = o.val; omega
  | ⟨1, _⟩ => show win0_3.index t (1 : Fin 2) * 128 + 1 * k.val = k.val; omega
theorem wl_at (c : Dev nD) (t : Fin cfg0.N) (p : Fin 128) (q : Fin 256) :
    iblk m c 4 t (ix2 p q) = V m c main_arg3 (ix2 p q) := by
  obtain ⟨-, -, -, -, -, -, -, -, e0, e1, -⟩ := idx_facts t
  show V m c main_arg3 (((cfg0.win 4).blk t).view.emb (ix2 p q)) = _
  refine congrArg (V m c main_arg3) ?_
  funext a; apply Fin.ext
  match a with
  | ⟨0, _⟩ => show win0_4.index t (0 : Fin 2) * 128 + 1 * p.val = p.val; omega
  | ⟨1, _⟩ => show win0_4.index t (1 : Fin 2) * 256 + 1 * q.val = q.val; omega

/-! ## What a point writes back -/

/-- The layer of the argument arrays as the region finds them. -/
abbrev layer (c : Dev nD) : S10000x128.Idx → EReal :=
  Cert.Sage.out (V m c main_arg0) (V m c main_arg1) (V m c main_arg2) (V m c main_arg3)

/-- Local row r of the first half of point t's output block is array row 400 t + r, of the second 400 t + 200 + r. -/
theorem outA_idx (t : Fin cfg0.N) (r : Fin 200) (p : Fin 128) :
    ((cfg0.win 5).blk t).view.emb (rOutA.emb (ix2 r p)) = ix2 (rowA (grid0.coords t) r) p := by
  obtain ⟨-, -, -, -, -, -, -, -, -, -, e0, e1, eg⟩ := idx_facts t
  funext a; apply Fin.ext
  match a with
  | ⟨0, _⟩ => show win0_5.index t (0 : Fin 2) * 400 + 1 * (0 + 1 * r.val) = 400 * ((grid0.coords t) 0).val + r.val; omega
  | ⟨1, _⟩ => show win0_5.index t (1 : Fin 2) * 128 + 1 * (0 + 1 * p.val) = p.val; omega
theorem outB_idx (t : Fin cfg0.N) (r : Fin 200) (p : Fin 128) :
    ((cfg0.win 5).blk t).view.emb (rOutB.emb (ix2 r p)) = ix2 (rowB (grid0.coords t) r) p := by
  obtain ⟨-, -, -, -, -, -, -, -, -, -, e0, e1, eg⟩ := idx_facts t
  funext a; apply Fin.ext
  match a with
  | ⟨0, _⟩ => show win0_5.index t (0 : Fin 2) * 400 + 1 * (200 + 1 * r.val) = 400 * ((grid0.coords t) 0).val + 200 + r.val; omega
  | ⟨1, _⟩ => show win0_5.index t (1 : Fin 2) * 128 + 1 * (0 + 1 * p.val) = p.val; omega

/-- What point t writes back is block t of the layer. -/
theorem flushed_eq (c : Dev nD) (t : Fin cfg0.N) :
    (dats m 0 c).flushed 5 t = ((cfg0.win 5).blk t).view.read (Elt Ideal) (layer m c) := by
  show (cfg0.win 5).cut (grid0.coords t) ((dats m 0 c).after 5 t) = _
  rw [after_5]
  unfold outBlock
  funext y
  refine View.canon_apply_of_pieces (Val := Elt Ideal) (S := S400x128) (e := .f32)
    (fun y => layer m c (((cfg0.win 5).blk t).view.emb y)) _ ?_ y (outCover _ _ y)
  intro pc hpc x
  simp only [List.mem_cons, List.not_mem_nil, or_false] at hpc
  rcases hpc with rfl | rfl
  · obtain ⟨r, p, rfl⟩ : ∃ (r : Fin 200) (p : Fin 128), x = ix2 r p := ⟨x 0, x 1, eq_ix2 x⟩
    show halfB (grid0.coords t) (iblk m c 1 t) (iblk m c 2 t) (iblk m c 3 t) (iblk m c 4 t) (ix2 r p)
      = layer m c (((cfg0.win 5).blk t).view.emb (rOutB.emb (ix2 r p)))
    rw [outB_idx]
    refine (halfB_at _ _ _ _ _ r p).trans ?_
    show _ = outAt (V m c main_arg0) (V m c main_arg1) (V m c main_arg2) (V m c main_arg3) (rowB (grid0.coords t) r) p
    unfold outAt denom
    simp only [adjB_at m c t, feat_at m c t, wn_at m c t, wl_at m c t]
  · obtain ⟨r, p, rfl⟩ : ∃ (r : Fin 200) (p : Fin 128), x = ix2 r p := ⟨x 0, x 1, eq_ix2 x⟩
    show halfA (grid0.coords t) (iblk m c 0 t) (iblk m c 2 t) (iblk m c 3 t) (iblk m c 4 t) (ix2 r p)
      = layer m c (((cfg0.win 5).blk t).view.emb (rOutA.emb (ix2 r p)))
    rw [outA_idx]
    refine (halfA_at _ _ _ _ _ r p).trans ?_
    show _ = outAt (V m c main_arg0) (V m c main_arg1) (V m c main_arg2) (V m c main_arg3) (rowA (grid0.coords t) r) p
    unfold outAt denom
    simp only [adjA_at m c t, feat_at m c t, wn_at m c t, wl_at m c t]

/-! ## The blocks tile the array -/

theorem mem_blk (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_v0).slice (win0_5.rect t)).set ↔ _
  rw [View.set_slice_whole, Rect.mem_set_unit]
  exact Iff.rfl

/-- Row r is in the block of point r / 400. -/
theorem cover (i : S10000x128.Idx) :
    ∃ t : Fin cfg0.N, (cfg0.win 5).flush t = true ∧ i ∈ ((cfg0.win 5).blk t).view.set := by
  have h0 : (i 0).val < 10000 := (i 0).isLt
  have h1 : (i 1).val < 128 := (i 1).isLt
  have hN : grid0.N = 25 := N_0
  let t : Fin cfg0.N := ⟨(i 0).val / 400, by show (i 0).val / 400 < grid0.N; omega⟩
  obtain ⟨-, -, -, -, -, -, -, -, -, -, e0, e1, -⟩ := idx_facts t
  have ht : t.val = (i 0).val / 400 := rfl
  refine ⟨t, flush0_5 t, (mem_blk t i).mpr ?_⟩
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- The result array after the run is the layer of the argument arrays. -/
theorem final (c : Dev nD) : (dats m 0 c).arrAt 5 cfg0.N = layer m c :=
  (dats m 0 c).arrAt_eq_of_cover 5 (layer m c) (fun t _ => flushed_eq m c t) cover

/-! ## The run, read -/

/-- Every weakly fair execution of the idealized kernel ends with the result array at the layer of the argument
    arrays, and the argument arrays as they began. -/
theorem run_value : θ_run defs (onTc (τ := τ) (main (F := Ideal))) ⟨m, fun _ => 0, ρ⟩ (fun r => ∀ c : Dev nD,
      r.2.mem ((c.tc : Thread nD τ).loc main_v0)
        = Cert.Sage.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 5).trans (final m c),
     (h c 0).trans (((dats m 0 c).arrAt_in 0 rfl _).trans (A_eq m c 0)),
     (h c 2).trans (((dats m 0 c).arrAt_in 2 rfl _).trans (A_eq m c 2)),
     (h c 3).trans (((dats m 0 c).arrAt_in 3 rfl _).trans (A_eq m c 3)),
     (h c 4).trans (((dats m 0 c).arrAt_in 4 rfl _).trans (A_eq m c 4))⟩) (run_arrays m ρ)

end Cert.KernelIdeal.RunValue

end
-- ==== Proof.SageLaw.lean ====
/-
  The algebraic law between the two arrangements of the layer.
  With real entries and a nonzero real divisor s, the quotient x / s is the product x · (1 / s), and then
    Σ_o ((Σ_j a_j · Σ_k f_jk · n_ok) · c) · w_o   and   Σ_k ((Σ_j a_j · f_jk) · c) · (Σ_o w_o · n_ok)
  are both c · Σ_o Σ_j Σ_k a_j f_jk n_ok w_o. The law is proved once over the reals for arbitrary finite index
  types, then carried to the extended reals by writing every entry as the coercion of a real.
-/
import proofs.«108482_g5428838662690_cont_9to1_m_1089_7_alg».proof.Proof.SageSpec
import Mathlib.Algebra.BigOperators.Ring.Finset
import Mathlib.Data.EReal.Basic
import Mathlib.Tactic.Ring

noncomputable section

namespace Cert.Sage

open Idealize.ShloMosaic Idealize.ShloMosaic.ValueIdx

/-- The law over the reals: a common factor `c` and the order of three finite sums do not matter. -/
private theorem real_law {J K O : Type*} [Fintype J] [Fintype K] [Fintype O]
    (a : J → ℝ) (f : J → K → ℝ) (n : O → K → ℝ) (w : O → ℝ) (c : ℝ) :
    ∑ o, ((∑ j, a j * ∑ k, f j k * n o k) * c) * w o
      = ∑ k, ((∑ j, a j * f j k) * c) * ∑ o, w o * n o k := by
  have hL : ∀ o, ((∑ j, a j * ∑ k, f j k * n o k) * c) * w o
      = ∑ k, ∑ j, a j * f j k * n o k * w o * c := by
    intro o
    rw [Finset.sum_comm]
    simp only [Finset.mul_sum, Finset.sum_mul]
    exact Finset.sum_congr rfl (fun j _ => Finset.sum_congr rfl (fun k _ => by ring))
  have hR : ∀ k, ((∑ j, a j * f j k) * c) * ∑ o, w o * n o k
      = ∑ o, ∑ j, a j * f j k * n o k * w o * c := by
    intro k
    simp only [Finset.mul_sum, Finset.sum_mul]
    exact Finset.sum_congr rfl (fun o _ => Finset.sum_congr rfl (fun j _ => by ring))
  rw [Finset.sum_congr rfl (fun o _ => hL o), Finset.sum_congr rfl (fun k _ => hR k), Finset.sum_comm]

/-- A finite sum of coercions of reals is the coercion of the real sum. -/
private theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The float literal 1.0 denotes the real number one. -/
private theorem one_eq : one = ((1 : ℝ) : EReal) := by
  show Ideal.ofBits .f32 0x3F800000#32 = _
  simp [Ideal.ofBits, Ideal.ieee, -EReal.coe_mul]; norm_num

theorem refAt_eq_outAt
    (adj : (⟨2, ![10000, 10000]⟩ : Shape).Idx → EReal) (feat : (⟨2, ![10000, 128]⟩ : Shape).Idx → EReal)
    (wn : (⟨2, ![128, 128]⟩ : Shape).Idx → EReal) (wl : (⟨2, ![128, 256]⟩ : Shape).Idx → EReal)
    (hadj : ∀ i, ∃ x : ℝ, adj i = (x : EReal)) (hfeat : ∀ i, ∃ x : ℝ, feat i = (x : EReal))
    (hwn : ∀ i, ∃ x : ℝ, wn i = (x : EReal)) (hwl : ∀ i, ∃ x : ℝ, wl i = (x : EReal))
    (r : Fin 10000) (hden : denom adj r ≠ 0) (p : Fin 128) :
    refAt adj feat wn wl r p = outAt adj feat wn wl r p := by
  choose a ha using hadj
  choose f hf using hfeat
  choose n hn using hwn
  choose w hw using hwl
  -- the divisor is the coercion of a nonzero real
  have hs : denom adj r = (((∑ j : Fin 10000, a (ix2 r j)) + 1 : ℝ) : EReal) := by
    unfold denom
    rw [one_eq, EReal.coe_add, ← coe_sum]
    simp only [ha]
  have hs0 : (∑ j : Fin 10000, a (ix2 r j)) + 1 ≠ 0 := by
    intro h
    apply hden
    rw [hs, h]
    rfl
  unfold refAt outAt agg
  congr 1
  rw [hs]
  simp only [Ideal.div_coe hs0, ha, hf, hn, hw, ← EReal.coe_mul, coe_sum]
  exact congrArg _ (real_law (fun j => a (ix2 r j)) (fun j k => f (ix2 j k)) (fun o k => n (ix2 o k))
    (fun o => w (ix2 p (hi o))) (1 / ((∑ j : Fin 10000, a (ix2 r j)) + 1)))

end Cert.Sage

end
-- ==== Proof.SagePre.lean ====
/-
  The printed precondition, read at the extended reals: every entry of the four argument arrays is a real number,
  and no row's divisor (the adjacency row's sum plus one) is zero.

  The predicate is the conjunction of five "for all" reductions. Four say |x| < +∞ of every entry x of an array,
  where |x| is max x (-x): that fails at both infinities, so x is a real number. The fifth says of every row r that
  (0 + Σ_j adj r j) + 1 ≠ 0, which is the row's divisor being nonzero.
-/
import proofs.«108482_g5428838662690_cont_9to1_m_1089_7_alg».proof.Proof.SageSpec
import proofs.«108482_g5428838662690_cont_9to1_m_1089_7_alg».proof.Pre_finite_inputs
import Idealize.ShloMosaic.Lib.ReduceAll
import Idealize.ShloMosaic.PureOps.Ideal.Laws
import Idealize.ShloMosaic.Lib.ValueIdx

noncomputable section

namespace Cert.Sage.Pre

open Cert.Pre_finite_inputs Idealize.ShloMosaic Idealize.ShloMosaic.ValueIdx

/-- The pattern 0x7F800000 denotes +∞. -/
private theorem inf_f32 : Ideal.ofBits .f32 0x7F800000#32 = ⊤ := by simp [Ideal.ofBits, Ideal.ieee]

/-- A "less than" comparison that came out 1 is the strict order. -/
private theorem lt_of_olt (x y : EReal) (h : Ideal.cmp .olt x y = 1#1) : x < y := by
  by_contra hn
  simp [Ideal.cmp, hn] at h

/-- A "not equal" comparison that came out 1 is the inequality. -/
private theorem ne_of_une (x y : EReal) (h : Ideal.cmp .une x y = 1#1) : x ≠ y := by
  intro hxy
  simp [Ideal.cmp, hxy] at h

/-- An extended real whose absolute value max x (-x) is below +∞ is a real number: at -∞ the negation is +∞, at +∞
    the value itself is. -/
private theorem real_of_abs_lt (x : EReal)
    (h : Ideal.cmp .olt (max x (-x)) (Ideal.ofBits .f32 0x7F800000#32) = 1#1) : ∃ r : ℝ, x = (r : EReal) := by
  have hlt := lt_of_olt _ _ h
  rw [inf_f32] at hlt
  induction x using EReal.rec with
  | bot => simp at hlt
  | coe r => exact ⟨r, rfl⟩
  | top => simp at hlt

/-- The scalar shape has one index. -/
private instance : Subsingleton S_.Idx := ⟨fun a b => funext fun d => d.elim0⟩

/-- The sum of the adjacency over axis 1 from an initial value, at row r: the initial value plus Σ_j adj r j. -/
private theorem rowSum (a0 : FVec Ideal S10000x10000 .f32) (h' : S10000x10000.ReducesTo [1] S10000) (init : EReal)
    (r : Fin 10000) : Ideal.hostReduceAdd h' a0 init (ix1 r) = init + ∑ j : Fin 10000, a0 (ix2 r j) := by
  have hR : S10000x10000.Reduces [1] S10000 := by decide
  refine (Ideal.hostReduceAdd_single h' hR a0 init (ix1 r)).trans ?_
  refine congrArg (init + ·) ?_
  refine Finset.sum_congr rfl fun k _ => congrArg a0 ?_
  funext d
  match d with
  | ⟨0, _⟩ => exact Fin.ext rfl
  | ⟨1, _⟩ => exact Fin.ext rfl

theorem decode [Cert.Pre_finite_inputs.Facts]
    (a0 : FVec Ideal Cert.Pre_finite_inputs.S10000x10000 .f32) (a1 : FVec Ideal Cert.Pre_finite_inputs.S10000x128 .f32)
    (a2 : FVec Ideal Cert.Pre_finite_inputs.S128x128 .f32) (a3 : FVec Ideal Cert.Pre_finite_inputs.S128x256 .f32)
    (h : Cert.Pre_finite_inputs.fn (F := Ideal) a0 a1 a2 a3 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ ∀ r : Fin 10000, Cert.Sage.denom a0 r ≠ 0 := by
  have h0 := congrFun h ValueIdx.ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i), fun r => ?_⟩
  have e := Host.reduce_andi_all _ _ _ _ _ h5 (ix1 r)
  have e' : Ideal.hostReduceAdd Facts.reducesTo_S10000x10000_S10000_d1 a0 (Ideal.ofBits .f32 0x00000000#32) (ix1 r)
      + Cert.Sage.one ≠ Ideal.ofBits .f32 0x00000000#32 := ne_of_une _ _ e
  rw [rowSum, Ideal.ofBits_zero_f32, zero_add] at e'
  exact e'

end Cert.Sage.Pre

end
-- ==== Proof.SageReference.lean ====
/-
  The reference program's result is the layer written with the aggregation last (`Cert.Sage.refOut`).
  Each operation of the reference is read at an index built from literal coordinates:
    the projected features        (feat · wnᵀ)(j, o)      = Σ_k feat j k · wn o k
    the aggregate before division (adj · that)(r, o)      = Σ_j adj r j · Σ_k feat j k · wn o k
    the divisor, broadcast along the columns              = (Σ_j adj r j) + 1
    the joined array of 256 columns: column q < 128 is feat r q, column 128 + o is the divided aggregate
    the result (joined · wlᵀ)(r, p) = Σ over 256 columns, split into the two halves of 128.
  No law used needs a finite operand: only 0 + x = x and the splitting of a finite sum.
-/
import proofs.«108482_g5428838662690_cont_9to1_m_1089_7_alg».proof.Proof.SageSpec
import proofs.«108482_g5428838662690_cont_9to1_m_1089_7_alg».proof.Proof.Gen.ReferenceIdeal.Read
import Idealize.ShloMosaic.Lib.ValueIdx
import Idealize.ShloMosaic.Lib.Pipeline.Value
import Idealize.ShloMosaic.PureOps.Ideal.Laws

noncomputable section

namespace Cert.Sage.Ref

open Cert.ReferenceIdeal Cert.ReferenceIdeal.Gen Cert.ReferenceIdeal.Read Idealize.ShloMosaic Idealize.ShloMosaic.ValueIdx

variable [Cert.ReferenceIdeal.Facts]

/-- A sum over the 256 joined columns is the sum over the first 128 plus the sum over the last 128. -/
theorem sum_halves (f : Fin 256 → EReal) :
    ∑ k : Fin 256, f k = (∑ q : Fin 128, f (lo q)) + ∑ o : Fin 128, f (hi o) := by
  exact Fin.sum_univ_add (M := EReal) (a := 128) (b := 128) f

/-- The projected features: row `j` of the features against row `o` of the neighbour weights. -/
theorem v1_at (x1 : (⟨S10000x128, .f32⟩ : BufTy).Contents (Elt Ideal))
    (x2 : (⟨S128x128, .f32⟩ : BufTy).Contents (Elt Ideal)) (j : Fin 10000) (o : Fin 128) :
    val_main_v1 (F := Ideal) x1 x2 (ix2 j o) = ∑ k : Fin 128, x1 (ix2 j k) * x2 (ix2 o k) := by
  rw [val_main_v1_apply]
  refine Finset.sum_congr rfl fun k _ => ?_
  rw [val_main_v0_apply]
  have e1 : lidx_main_v1 (ix2 j o) k = ix2 j k :=
    funext fun a => Fin.ext (by match a with | ⟨0, _⟩ => rfl | ⟨1, _⟩ => rfl)
  have e2 : idx_main_v0 (ridx_main_v1 (ix2 j o) k) = ix2 o k :=
    funext fun a => Fin.ext (by match a with | ⟨0, _⟩ => rfl | ⟨1, _⟩ => rfl)
  rw [e1, e2]

/-- The aggregate before the division: row `r` of the adjacency against column `o` of the projected features. -/
theorem v2_at (x0 : (⟨S10000x10000, .f32⟩ : BufTy).Contents (Elt Ideal))
    (x1 : (⟨S10000x128, .f32⟩ : BufTy).Contents (Elt Ideal))
    (x2 : (⟨S128x128, .f32⟩ : BufTy).Contents (Elt Ideal)) (r : Fin 10000) (o : Fin 128) :
    val_main_v2 (F := Ideal) x0 x1 x2 (ix2 r o)
      = ∑ j : Fin 10000, x0 (ix2 r j) * ∑ k : Fin 128, x1 (ix2 j k) * x2 (ix2 o k) := by
  rw [val_main_v2_apply]
  refine Finset.sum_congr rfl fun j _ => ?_
  have e1 : lidx_main_v2 (ix2 r o) j = ix2 r j :=
    funext fun a => Fin.ext (by match a with | ⟨0, _⟩ => rfl | ⟨1, _⟩ => rfl)
  have e2 : ridx_main_v2 (ix2 r o) j = ix2 j o :=
    funext fun a => Fin.ext (by match a with | ⟨0, _⟩ => rfl | ⟨1, _⟩ => rfl)
  rw [e1, e2, v1_at]

/-- The divisor, broadcast along the columns: the adjacency row's sum from zero, plus the literal one. -/
theorem v7_at (x0 : (⟨S10000x10000, .f32⟩ : BufTy).Contents (Elt Ideal)) (r : Fin 10000) (o : Fin 128) :
    val_main_v7 (F := Ideal) x0 (ix2 r o) = denom x0 r := by
  rw [val_main_v7_apply, val_main_v6_apply, val_main_v4_apply, val_main_v5_apply, val_main_cst_0_apply,
    val_main_v3_apply, val_main_cst_apply, Ideal.addf_def, Ideal.ofBits_def, Ideal.ofBits_def,
    Ideal.ofBits_zero_f32, zero_add]
  unfold denom
  refine congrArg (· + one) (Finset.sum_congr rfl fun j _ => ?_)
  exact congrArg x0 (funext fun a => Fin.ext (by
    match a with
    | ⟨0, _⟩ => show r.val * 1 + 0 = r.val; omega
    | ⟨1, _⟩ => rfl))

/-- The divided aggregate. -/
theorem v8_at (x0 : (⟨S10000x10000, .f32⟩ : BufTy).Contents (Elt Ideal))
    (x1 : (⟨S10000x128, .f32⟩ : BufTy).Contents (Elt Ideal))
    (x2 : (⟨S128x128, .f32⟩ : BufTy).Contents (Elt Ideal)) (r : Fin 10000) (o : Fin 128) :
    val_main_v8 (F := Ideal) x0 x1 x2 (ix2 r o) = agg x0 x1 x2 r o := by
  rw [val_main_v8_apply, Ideal.hostDivf_def, v2_at, v7_at]
  rfl

/-- A column below 128 of the joined array is the features' column. -/
theorem v9_lo (x0 : (⟨S10000x10000, .f32⟩ : BufTy).Contents (Elt Ideal))
    (x1 : (⟨S10000x128, .f32⟩ : BufTy).Contents (Elt Ideal))
    (x2 : (⟨S128x128, .f32⟩ : BufTy).Contents (Elt Ideal)) (r : Fin 10000) (q : Fin 128) :
    val_main_v9 (F := Ideal) x0 x1 x2 (ix2 r (lo q)) = x1 (ix2 r q) := by
  unfold val_main_v9
  exact concatenate_pair_apply_left 1 x1 (val_main_v8 (F := Ideal) x0 x1 x2)
    concatenates_S10000x128_S10000x128_S10000x256_d1 (ix2 r (lo q)) rfl (ix2 r q) (fun b => by
      match b with
      | ⟨0, _⟩ => rfl
      | ⟨1, _⟩ => rfl)

/-- Column 128 + o of the joined array is column `o` of the divided aggregate. -/
theorem v9_hi (x0 : (⟨S10000x10000, .f32⟩ : BufTy).Contents (Elt Ideal))
    (x1 : (⟨S10000x128, .f32⟩ : BufTy).Contents (Elt Ideal))
    (x2 : (⟨S128x128, .f32⟩ : BufTy).Contents (Elt Ideal)) (r : Fin 10000) (o : Fin 128) :
    val_main_v9 (F := Ideal) x0 x1 x2 (ix2 r (hi o)) = val_main_v8 (F := Ideal) x0 x1 x2 (ix2 r o) := by
  unfold val_main_v9
  exact concatenate_pair_apply_right 1 x1 (val_main_v8 (F := Ideal) x0 x1 x2)
    concatenates_S10000x128_S10000x128_S10000x256_d1 (ix2 r (hi o)) rfl rfl (ix2 r o)
    (fun b hb => by
      match b with
      | ⟨0, _⟩ => rfl
      | ⟨1, _⟩ => exact absurd rfl hb)
    (by show o.val + 128 = 128 + o.val; omega)

/-- The transposed output weights: row `c` of the transpose is column `c` of the weights. -/
theorem v10_at (x3 : (⟨S128x256, .f32⟩ : BufTy).Contents (Elt Ideal)) (c : Fin 256) (p : Fin 128) :
    val_main_v10 (F := Ideal) x3 (ix2 c p) = x3 (ix2 p c) := by
  rw [val_main_v10_apply]
  exact congrArg x3 (funext fun a => Fin.ext (by match a with | ⟨0, _⟩ => rfl | ⟨1, _⟩ => rfl))

/-- The reference program's result is the layer with the aggregation last. -/
theorem reference_eq (x0 : (⟨S10000x10000, .f32⟩ : BufTy).Contents (Elt Ideal)) (x1 : (⟨S10000x128, .f32⟩ : BufTy).Contents (Elt Ideal))
    (x2 : (⟨S128x128, .f32⟩ : BufTy).Contents (Elt Ideal)) (x3 : (⟨S128x256, .f32⟩ : BufTy).Contents (Elt Ideal)) :
    Cert.ReferenceIdeal.Read.val_main_v11 (F := Ideal) x0 x1 x2 x3 = Cert.Sage.refOut x0 x1 x2 x3 := by
  funext i
  obtain ⟨r, p, rfl⟩ : ∃ (r : Fin 10000) (p : Fin 128), i = ix2 r p := ⟨i 0, i 1, eq_ix2 i⟩
  rw [val_main_v11_apply]
  have e1 : ∀ k : Fin 256, lidx_main_v11 (ix2 r p) k = ix2 r k := fun k =>
    funext fun a => Fin.ext (by match a with | ⟨0, _⟩ => rfl | ⟨1, _⟩ => rfl)
  have e2 : ∀ k : Fin 256, ridx_main_v11 (ix2 r p) k = ix2 k p := fun k =>
    funext fun a => Fin.ext (by match a with | ⟨0, _⟩ => rfl | ⟨1, _⟩ => rfl)
  simp only [e1, e2, v10_at]
  rw [sum_halves]
  simp only [v9_lo, v9_hi, v8_at]
  rfl

end Cert.Sage.Ref

end
-- ==== Proof.lean ====
/-
  A GraphSAGE layer over a dense adjacency: with s r = (Σ_j adj r j) + 1,
    z r p = Σ_q feat r q · wl p q + Σ_o ((Σ_j adj r j · Σ_k feat j k · wn o k) / s r) · wl p (128 + o).
  The kernel streams the adjacency once, 400 rows per grid point as two blocks of 200 rows read through two windows on
  the one array, aggregates the RAW features first and meets the product of the two weight matrices afterwards:
    z r p = Σ_q feat r q · wl p q + Σ_k ((Σ_j adj r j · feat j k) / s r) · (Σ_o wl p (128 + o) · wn o k).
  Over the extended reals the two agree when every entry is a real number and every divisor s r is nonzero (the quotient
  is then a product with 1 / s r and both are one triple sum); where s r = 0 the reference itself divides by zero, and
  the precondition keeps every s r off zero.
  The three frames: each kernel program runs its 25 points, every input window's array never written back; the
  reference is host operations alone. Nothing of the kernel is rewritten by its idealization.
-/
import proofs.«108482_g5428838662690_cont_9to1_m_1089_7_alg».proof.Defs
import proofs.«108482_g5428838662690_cont_9to1_m_1089_7_alg».proof.Proof.Gen.Kernel
import proofs.«108482_g5428838662690_cont_9to1_m_1089_7_alg».proof.Proof.Gen.Kernel.Skeleton
import proofs.«108482_g5428838662690_cont_9to1_m_1089_7_alg».proof.Proof.Gen.Kernel.Launch
import proofs.«108482_g5428838662690_cont_9to1_m_1089_7_alg».proof.Proof.Gen.Kernel.Points
import proofs.«108482_g5428838662690_cont_9to1_m_1089_7_alg».proof.Proof.Gen.KernelIdeal
import proofs.«108482_g5428838662690_cont_9to1_m_1089_7_alg».proof.Proof.Gen.KernelIdeal.Skeleton
import proofs.«108482_g5428838662690_cont_9to1_m_1089_7_alg».proof.Proof.Gen.KernelIdeal.Launch
import proofs.«108482_g5428838662690_cont_9to1_m_1089_7_alg».proof.Proof.Gen.KernelIdeal.Points
import proofs.«108482_g5428838662690_cont_9to1_m_1089_7_alg».proof.Proof.Gen.ReferenceIdeal
import proofs.«108482_g5428838662690_cont_9to1_m_1089_7_alg».proof.Proof.Gen.Pre_finite_inputs
import proofs.«108482_g5428838662690_cont_9to1_m_1089_7_alg».proof.Proof.Gen.ReferenceIdeal.Run
import proofs.«108482_g5428838662690_cont_9to1_m_1089_7_alg».proof.Proof.Gen.ReferenceIdeal.Read
import proofs.«108482_g5428838662690_cont_9to1_m_1089_7_alg».proof.Proof.SageKernelRun
import proofs.«108482_g5428838662690_cont_9to1_m_1089_7_alg».proof.Proof.SageKernelRunBits
import proofs.«108482_g5428838662690_cont_9to1_m_1089_7_alg».proof.Proof.SageKernelValue
import proofs.«108482_g5428838662690_cont_9to1_m_1089_7_alg».proof.Proof.SageLaw
import proofs.«108482_g5428838662690_cont_9to1_m_1089_7_alg».proof.Proof.SagePre
import proofs.«108482_g5428838662690_cont_9to1_m_1089_7_alg».proof.Proof.SageReference
import Idealize.ShloMosaic.Adequacy
import Idealize.ShloMosaic.Init

noncomputable section

namespace Cert.Proof

open Idealize.ShloMosaic Idealize.SL.Sem

/-- Under the precondition the reference's arrangement of the layer is the kernel's: every entry is a real number
    and every row's divisor is nonzero, so the law of the two arrangements applies at every index. -/
theorem refOut_eq_out (a0 : (⟨2, ![10000, 10000]⟩ : Shape).Idx → EReal) (a1 : (⟨2, ![10000, 128]⟩ : Shape).Idx → EReal)
    (a2 : (⟨2, ![128, 128]⟩ : Shape).Idx → EReal) (a3 : (⟨2, ![128, 256]⟩ : Shape).Idx → EReal)
    (h : Cert.Pre_finite_inputs.fn (F := Ideal) a0 a1 a2 a3 = fun _ => 1#1) :
    Cert.Sage.refOut a0 a1 a2 a3 = Cert.Sage.out a0 a1 a2 a3 := by
  obtain ⟨h0, h1, h2, h3, hd⟩ := Cert.Sage.Pre.decode a0 a1 a2 a3 h
  funext i
  exact Cert.Sage.refAt_eq_outAt a0 a1 a2 a3 h0 h1 h2 h3 (i 0) (hd (i 0)) (i 1)

/-- The word-level kernel runs to the end and leaves its arguments. -/
theorem frame_k : Cert.frame_Kernel := fun m ρ _ => Cert.Kernel.Run.frame m ρ
/-- So does its idealization. -/
theorem frame_ki : Cert.frame_KernelIdeal := fun m ρ _ => Cert.KernelIdeal.Run.frame m ρ
/-- The reference is host operations alone: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, the idealized kernel ends with its result at the layer in the kernel's
    arrangement, the reference with its result at the layer in its own, and under the precondition those are one
    function of the arguments. -/
theorem algebraic : Cert.algebraic_KernelIdeal_ReferenceIdeal := by
  intro m ρ m' ρ' hpre hagree
  refine ⟨fun c => Cert.Sage.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Sage.Ref.reference_eq,
    (hagree c).1, (hagree c).2.1, (hagree c).2.2.1, (hagree c).2.2.2]
  exact refOut_eq_out _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
